-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S256x1024 : Shape := ⟨2, ![256, 1024]⟩
abbrev S2048x256 : Shape := ⟨2, ![2048, 256]⟩
abbrev S256x2048 : Shape := ⟨2, ![256, 2048]⟩
abbrev S1x2048 : Shape := ⟨2, ![1, 2048]⟩
abbrev S1x1 : Shape := ⟨2, ![1, 1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S256x1024 : S_.BroadcastsInDim S256x1024 (![] : Fin 0 → Fin S256x1024.rank)
  reducesTo_S256x1024_S_d0_1 : S256x1024.ReducesTo [0, 1] S_
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S1x2048 .f32) (main_arg8 : FVec F S1x1 .f32) (main_arg9 : FVec F S1x1 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  main_v48

def fn_part1 {F : FTy → Type} [FloatOps F] (main_arg4 : FVec F S256x2048 .f32) (main_arg5 : FVec F S2048x256 .f32) (main_arg6 : FVec F S1x2048 .f32) (main_arg7 : FVec F S1x2048 .f32) (main_arg8 : FVec F S1x1 .f32) (main_arg9 : FVec F S1x1 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048x256 .f32 := Host.absf main_arg5
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x2048 .f32) (main_arg2 : FVec F S256x1024 .f32) (main_arg3 : FVec F S2048x256 .f32) (main_arg4 : FVec F S256x2048 .f32) (main_arg5 : FVec F S2048x256 .f32) (main_arg6 : FVec F S1x2048 .f32) (main_arg7 : FVec F S1x2048 .f32) (main_arg8 : FVec F S1x1 .f32) (main_arg9 : FVec F S1x1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S8192x2048 : Shape := ⟨2, ![8192, 2048]⟩
abbrev S256x1024 : Shape := ⟨2, ![256, 1024]⟩
abbrev S2048x256 : Shape := ⟨2, ![2048, 256]⟩
abbrev S256x2048 : Shape := ⟨2, ![256, 2048]⟩
abbrev S1x2048 : Shape := ⟨2, ![1, 2048]⟩
abbrev S1x1 : Shape := ⟨2, ![1, 1]⟩
abbrev S1024x256 : Shape := ⟨2, ![1024, 256]⟩
abbrev S_ : Shape := ⟨0, ![]⟩
abbrev S512x1024 : Shape := ⟨2, ![512, 1024]⟩
abbrev S512x2048 : Shape := ⟨2, ![512, 2048]⟩
abbrev S512x256 : Shape := ⟨2, ![512, 256]⟩
abbrev S1x1024 : Shape := ⟨2, ![1, 1024]⟩

abbrev nBuf : Space → Nat
  | .hbm => 35
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S256x1024, .f32⟩
  | .hbm, ⟨3, _⟩ => ⟨S2048x256, .f32⟩
  | .hbm, ⟨4, _⟩ => ⟨S256x2048, .f32⟩
  | .hbm, ⟨5, _⟩ => ⟨S2048x256, .f32⟩
  | .hbm, ⟨6, _⟩ => ⟨S1x2048, .f32⟩
  | .hbm, ⟨7, _⟩ => ⟨S1x2048, .f32⟩
  | .hbm, ⟨8, _⟩ => ⟨S1x1, .f32⟩
  | .hbm, ⟨9, _⟩ => ⟨S1x1, .f32⟩
  | .hbm, ⟨10, _⟩ => ⟨S1024x256, .f32⟩
  | .hbm, ⟨11, _⟩ => ⟨S1024x256, .bf16⟩
  | .hbm, ⟨12, _⟩ => ⟨S256x2048, .f32⟩
  | .hbm, ⟨13, _⟩ => ⟨S256x2048, .bf16⟩
  | .hbm, ⟨14, _⟩ => ⟨S2048x256, .f32⟩
  | .hbm, ⟨15, _⟩ => ⟨S2048x256, .bf16⟩
  | .hbm, ⟨16, _⟩ => ⟨S256x2048, .f32⟩
  | .hbm, ⟨17, _⟩ => ⟨S256x2048, .bf16⟩
  | .hbm, ⟨18, _⟩ => ⟨S1x1, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1024x256, .bf16⟩
  | .local _ .vmem, ⟨5, _⟩ => ⟨S256x2048, .bf16⟩
  | .local _ .vmem, ⟨6, _⟩ => ⟨S2048x256, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x1, .f32⟩
  | .local _ .vmem, ⟨11, _⟩ => ⟨S1x1, .f32⟩
  | .local _ .vmem, ⟨12, _⟩ => ⟨S512x2048, .f32⟩
  | .local _ .vmem, ⟨13, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S256x1024_S1024x256_1_0 : S256x1024.Transposes [1, 0] S1024x256
  bitsLt_bf16_f32 : FTy.bits .bf16 < FTy.bits .f32
  transposes_S2048x256_S256x2048_1_0 : S2048x256.Transposes [1, 0] S256x2048
  transposes_S256x2048_S2048x256_1_0 : S256x2048.Transposes [1, 0] S2048x256
  bcast_S_S1x1 : S_.BroadcastsInDim S1x1 (![] : Fin 0 → Fin S1x1.rank)
  inb_S512x1024_S512x1024_0_0 : ∀ a, (![0, 0] : Fin 2 → Nat) a + S512x1024.size a ≤ S512x1024.size a
  h_S512x1024 : 0 < S512x1024.numel
  inb_S512x2048_S512x2048_0_0 : ∀ a, (![0, 0] : Fin 2 → Nat) a + S512x2048.size a ≤ S512x2048.size a
  h_S512x2048 : 0 < S512x2048.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2048_S256x1024_0_0 : ∀ a, (![0, 0] : Fin 2 → Nat) a + S256x1024.size a ≤ S256x2048.size a
  h_S256x1024 : 0 < S256x1024.numel
  shapeCasts_S256x1024_S256x1024 : S256x1024.ShapeCasts S256x1024
  inb_S1x2048_S1x1024_0_0 : ∀ a, (![0, 0] : Fin 2 → Nat) a + S1x1024.size a ≤ S1x2048.size a
  h_S1x1024 : 0 < S1x1024.numel
  broadcasts_S1x1024_S512x1024 : S1x1024.Broadcasts S512x1024
  broadcasts_S1x1_S512x1024 : S1x1.Broadcasts S512x1024
  slices_S512x2048_o0_0_S512x1024 : S512x2048.Slices ![0, 0] S512x1024
  inb_S512x2048_S512x1024_0_0 : ∀ a, (![0, 0] : Fin 2 → Nat) a + S512x1024.size a ≤ S512x2048.size a
  inb_S256x2048_S256x1024_0_1024 : ∀ a, (![0, 1024] : Fin 2 → Nat) a + S256x1024.size a ≤ S256x2048.size a
  inb_S1x2048_S1x1024_0_1024 : ∀ a, (![0, 1024] : Fin 2 → Nat) a + S1x1024.size a ≤ S1x2048.size a
  slices_S512x2048_o0_1024_S512x1024 : S512x2048.Slices ![0, 1024] S512x1024
  inb_S512x2048_S512x1024_0_1024 : ∀ a, (![0, 1024] : Fin 2 → Nat) a + S512x1024.size a ≤ S512x2048.size a
  dot_S512x1024_S1024x256_S512x256_1_0_0_1_n_n_wf : DotDims.WF S512x1024 S1024x256 S512x256 [1] [0] [0] [1] [] []
  dot_S512x2048_S2048x256_S512x256_1_0_0_1_n_n_wf : DotDims.WF S512x2048 S2048x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .bf16 = 32 ∨ (Rect.block (s := S2048x256) S2048x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S256x2048.size a
  hwx0_5 : ∀ i : grid0.Coords, EltTy.bits .bf16 = 32 ∨ (Rect.block (s := S256x2048) S256x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S8192x2048.size a
  hwx0_10 : ∀ i : grid0.Coords, EltTy.bits .f32 = 32 ∨ (Rect.block (s := S8192x2048) S512x2048.size (cc0_transform_10 i) (hinb0_10 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S512x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S256x1024 : Shape := ⟨2, ![256, 1024]⟩
abbrev S2048x256 : Shape := ⟨2, ![2048, 256]⟩
abbrev S256x2048 : Shape := ⟨2, ![256, 2048]⟩
abbrev S1x2048 : Shape := ⟨2, ![1, 2048]⟩
abbrev S1x1 : Shape := ⟨2, ![1, 1]⟩
abbrev S8192x256 : Shape := ⟨2, ![8192, 256]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S256x1024, .f32⟩
  | .hbm, ⟨3, _⟩ => ⟨S2048x256, .f32⟩
  | .hbm, ⟨4, _⟩ => ⟨S256x2048, .f32⟩
  | .hbm, ⟨5, _⟩ => ⟨S2048x256, .f32⟩
  | .hbm, ⟨6, _⟩ => ⟨S1x2048, .f32⟩
  | .hbm, ⟨7, _⟩ => ⟨S1x2048, .f32⟩
  | .hbm, ⟨8, _⟩ => ⟨S1x1, .f32⟩
  | .hbm, ⟨9, _⟩ => ⟨S1x1, .f32⟩
  | .hbm, ⟨10, _⟩ => ⟨S8192x256, .f32⟩
  | .hbm, ⟨11, _⟩ => ⟨S8192x2048, .f32⟩
  | .hbm, ⟨12, _⟩ => ⟨S8192x256, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S1x1, .f32⟩
  | .hbm, ⟨36, _⟩ => ⟨S1x1, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S1x1 : S_.BroadcastsInDim S1x1 (![] : Fin 0 → Fin S1x1.rank)
  bcast_S1x1_S8192x2048_0_1 : S1x1.BroadcastsInDim S8192x2048 (![0, 1] : Fin 2 → Fin S8192x2048.rank)
  dot_S8192x1024_S256x1024_S8192x256_1_1_0_0_n_n_wf : DotDims.WF S8192x1024 S256x1024 S8192x256 [1] [1] [0] [0] [] []
  dot_S8192x256_S2048x256_S8192x2048_1_1_0_0_n_n_wf : DotDims.WF S8192x256 S2048x256 S8192x2048 [1] [1] [0] [0] [] []
  dot_S8192x2048_S256x2048_S8192x256_1_1_0_0_n_n_wf : DotDims.WF S8192x2048 S256x2048 S8192x256 [1] [1] [0] [0] [] []

variable [Facts₀]

def dot_S8192x1024_S256x1024_S8192x256_1_1_0_0_n_n : DotDims S8192x1024 S256x1024 S8192x256 where
  lhsContracting := [1]
  rhsContracting := [1]
  lhsNonContracting := [0]
  rhsNonContracting := [0]
  lhsBatch := []
  rhsBatch := []
  wf := dot_S8192x1024_S256x1024_S8192x256_1_1_0_0_n_n_wf
def dot_S8192x256_S2048x256_S8192x2048_1_1_0_0_n_n : DotDims S8192x256 S2048x256 S8192x2048 where
  lhsContracting := [1]
  rhsContracting := [1]
  lhsNonContracting := [0]
  rhsNonContracting := [0]
  lhsBatch := []
  rhsBatch := []
  wf := dot_S8192x256_S2048x256_S8192x2048_1_1_0_0_n_n_wf
def dot_S8192x2048_S256x2048_S8192x256_1_1_0_0_n_n : DotDims S8192x2048 S256x2048 S8192x256 where
  lhsContracting := [1]
  rhsContracting := [1]
  lhsNonContracting := [0]
  rhsNonContracting := [0]
  lhsBatch := []
  rhsBatch := []
  wf := dot_S8192x2048_S256x2048_S8192x256_1_1_0_0_n_n_wf

class Facts : Prop extends Facts₀ where

variable [Facts]
-- ==== Proof.CellSpec.lean ====
/-
  The low-rank gated recurrent cell as ONE function of its arrays, entry by entry, over the extended reals.

  For a batch row `b` and a hidden column `j` the pre-activation is
      pre (b, j) = Σ_r (Σ_i x (b, i) · W1 (r, i)) · W2 (j, r) + Σ_r (Σ_k h (b, k) · U1 (r, k)) · U2 (j, r),
  the gate is z = σ (pre + bg j), the candidate is c = tanh (pre + bu j), and the new state is
      z · h (b, j) + (σ ζ · (1 − z) + σ ν) · c,
  with σ v = 1 / (1 + e^(−v)), the constant 1 being the word of the f32 literal 1.0.

  The same function is written twice: `G` over the weights as the arguments give them (`[rank, in]`, `[hidden, rank]`:
  rows against rows) and `B` over the transposed weights (`[in, rank]`, `[rank, hidden]`: the plain product) with the
  two sigmoids of ζ and ν already taken. `B_eq_G` says they agree at a row of `B`'s arrays that is a row of `G`'s, when
  the weights are each other's transposes. Only re-indexing of finite sums is used: no law that needs finiteness.
-/
import Idealize.ShloMosaic.PureOps.Ideal
import Idealize.ShloMosaic.PureOps.IdealRules
import Idealize.ShloMosaic.Lib.ValueIdx

noncomputable section

open scoped BigOperators

namespace Cert.GatedCell

open Idealize.ShloMosaic Idealize.ShloMosaic.ValueIdx

/-- The f32 word of 1.0, as an extended real. -/
abbrev one : EReal := Ideal.ofBits .f32 0x3F800000#32

/-- It is the number 1. -/
theorem one_eq : one = 1 := IdealRules.sign_bit.ideal_onePat .f32

/-- The logistic function spelt as a quotient: `1 / (1 + e^(−v))`. -/
def sgm (v : EReal) : EReal := Ideal.div one (one + Ideal.exp (-v))

/-- The one-operation logistic is that quotient. -/
theorem logistic_eq_sgm (v : EReal) : Ideal.logistic v = sgm v := by
  unfold sgm Ideal.logistic
  rw [one_eq]

/-- One entry of the new state from the entry's pre-activation `pre`, the two biases, the old state's entry `h` and the
    two scalar gates `sz = σ ζ`, `sn = σ ν`. -/
def cell (sz sn pre bg bu h : EReal) : EReal :=
  sgm (pre + bg) * h + (sz * (one - sgm (pre + bg)) + sn) * Ideal.tanh (pre + bu)

variable {N : Nat}

/-- The pre-activation at `(b, j)`, weights as given: rows of `W1`, `U1` against the input and state rows, then rows of
    `W2`, `U2` against the rank-256 intermediates. -/
def preRows (x : (⟨2, ![N, 1024]⟩ : Shape).Idx → EReal) (h : (⟨2, ![N, 2048]⟩ : Shape).Idx → EReal)
    (W1 : (⟨2, ![256, 1024]⟩ : Shape).Idx → EReal) (W2 : (⟨2, ![2048, 256]⟩ : Shape).Idx → EReal)
    (U1 : (⟨2, ![256, 2048]⟩ : Shape).Idx → EReal) (U2 : (⟨2, ![2048, 256]⟩ : Shape).Idx → EReal)
    (b : Fin N) (j : Fin 2048) : EReal :=
  (∑ r : Fin 256, (∑ i : Fin 1024, x (ix2 b i) * W1 (ix2 r i)) * W2 (ix2 j r))
    + ∑ r : Fin 256, (∑ k : Fin 2048, h (ix2 b k) * U1 (ix2 r k)) * U2 (ix2 j r)

/-- The pre-activation at `(p, j)`, weights transposed: two plain matrix products in a row, twice. -/
def preCols (x : (⟨2, ![N, 1024]⟩ : Shape).Idx → EReal) (h : (⟨2, ![N, 2048]⟩ : Shape).Idx → EReal)
    (W1T : (⟨2, ![1024, 256]⟩ : Shape).Idx → EReal) (W2T : (⟨2, ![256, 2048]⟩ : Shape).Idx → EReal)
    (U1T : (⟨2, ![2048, 256]⟩ : Shape).Idx → EReal) (U2T : (⟨2, ![256, 2048]⟩ : Shape).Idx → EReal)
    (p : Fin N) (j : Fin 2048) : EReal :=
  (∑ r : Fin 256, (∑ i : Fin 1024, x (ix2 p i) * W1T (ix2 i r)) * W2T (ix2 r j))
    + ∑ r : Fin 256, (∑ k : Fin 2048, h (ix2 p k) * U1T (ix2 k r)) * U2T (ix2 r j)

/-- THE CELL over the weights as given and the raw scalars ζ, ν. -/
def G (x : (⟨2, ![N, 1024]⟩ : Shape).Idx → EReal) (h : (⟨2, ![N, 2048]⟩ : Shape).Idx → EReal)
    (W1 : (⟨2, ![256, 1024]⟩ : Shape).Idx → EReal) (W2 : (⟨2, ![2048, 256]⟩ : Shape).Idx → EReal)
    (U1 : (⟨2, ![256, 2048]⟩ : Shape).Idx → EReal) (U2 : (⟨2, ![2048, 256]⟩ : Shape).Idx → EReal)
    (bg bu : (⟨2, ![1, 2048]⟩ : Shape).Idx → EReal) (zeta nu : (⟨2, ![1, 1]⟩ : Shape).Idx → EReal) :
    (⟨2, ![N, 2048]⟩ : Shape).Idx → EReal := fun i =>
  cell (sgm (zeta (ix2 (0 : Fin 1) (0 : Fin 1)))) (sgm (nu (ix2 (0 : Fin 1) (0 : Fin 1))))
    (preRows x h W1 W2 U1 U2 (i 0) (i 1)) (bg (ix2 (0 : Fin 1) (i 1))) (bu (ix2 (0 : Fin 1) (i 1))) (h i)

/-- THE CELL over the transposed weights and the two scalar gates already formed. -/
def B (x : (⟨2, ![N, 1024]⟩ : Shape).Idx → EReal) (h : (⟨2, ![N, 2048]⟩ : Shape).Idx → EReal)
    (W1T : (⟨2, ![1024, 256]⟩ : Shape).Idx → EReal) (W2T : (⟨2, ![256, 2048]⟩ : Shape).Idx → EReal)
    (U1T : (⟨2, ![2048, 256]⟩ : Shape).Idx → EReal) (U2T : (⟨2, ![256, 2048]⟩ : Shape).Idx → EReal)
    (bg bu : (⟨2, ![1, 2048]⟩ : Shape).Idx → EReal) (sz sn : (⟨2, ![1, 1]⟩ : Shape).Idx → EReal) :
    (⟨2, ![N, 2048]⟩ : Shape).Idx → EReal := fun y =>
  cell (sz (ix2 (0 : Fin 1) (0 : Fin 1))) (sn (ix2 (0 : Fin 1) (0 : Fin 1)))
    (preCols x h W1T W2T U1T U2T (y 0) (y 1)) (bg (ix2 (0 : Fin 1) (y 1))) (bu (ix2 (0 : Fin 1) (y 1))) (h y)

theorem G_apply (x : (⟨2, ![N, 1024]⟩ : Shape).Idx → EReal) (h : (⟨2, ![N, 2048]⟩ : Shape).Idx → EReal)
    (W1 : (⟨2, ![256, 1024]⟩ : Shape).Idx → EReal) (W2 : (⟨2, ![2048, 256]⟩ : Shape).Idx → EReal)
    (U1 : (⟨2, ![256, 2048]⟩ : Shape).Idx → EReal) (U2 : (⟨2, ![2048, 256]⟩ : Shape).Idx → EReal)
    (bg bu : (⟨2, ![1, 2048]⟩ : Shape).Idx → EReal) (zeta nu : (⟨2, ![1, 1]⟩ : Shape).Idx → EReal) (b : Fin N) (j : Fin 2048) :
    G x h W1 W2 U1 U2 bg bu zeta nu (ix2 b j)
      = cell (sgm (zeta (ix2 (0 : Fin 1) (0 : Fin 1)))) (sgm (nu (ix2 (0 : Fin 1) (0 : Fin 1))))
          (preRows x h W1 W2 U1 U2 b j) (bg (ix2 (0 : Fin 1) j)) (bu (ix2 (0 : Fin 1) j)) (h (ix2 b j)) := rfl

theorem B_apply (x : (⟨2, ![N, 1024]⟩ : Shape).Idx → EReal) (h : (⟨2, ![N, 2048]⟩ : Shape).Idx → EReal)
    (W1T : (⟨2, ![1024, 256]⟩ : Shape).Idx → EReal) (W2T : (⟨2, ![256, 2048]⟩ : Shape).Idx → EReal)
    (U1T : (⟨2, ![2048, 256]⟩ : Shape).Idx → EReal) (U2T : (⟨2, ![256, 2048]⟩ : Shape).Idx → EReal)
    (bg bu : (⟨2, ![1, 2048]⟩ : Shape).Idx → EReal) (sz sn : (⟨2, ![1, 1]⟩ : Shape).Idx → EReal) (p : Fin N) (j : Fin 2048) :
    B x h W1T W2T U1T U2T bg bu sz sn (ix2 p j)
      = cell (sz (ix2 (0 : Fin 1) (0 : Fin 1))) (sn (ix2 (0 : Fin 1) (0 : Fin 1)))
          (preCols x h W1T W2T U1T U2T p j) (bg (ix2 (0 : Fin 1) j)) (bu (ix2 (0 : Fin 1) j)) (h (ix2 p j)) := rfl

/-- THE TWO SPELLINGS AGREE at row `p` of the one and row `b` of the other when those rows of the input and of the state
    are the same, the bias rows agree at the column, the weights are each other's transposes, and the scalar gates are the sigmoids of ζ and ν. -/
theorem B_eq_G {M : Nat} (xb : (⟨2, ![N, 1024]⟩ : Shape).Idx → EReal) (hb : (⟨2, ![N, 2048]⟩ : Shape).Idx → EReal)
    (W1T : (⟨2, ![1024, 256]⟩ : Shape).Idx → EReal) (W2T : (⟨2, ![256, 2048]⟩ : Shape).Idx → EReal)
    (U1T : (⟨2, ![2048, 256]⟩ : Shape).Idx → EReal) (U2T : (⟨2, ![256, 2048]⟩ : Shape).Idx → EReal)
    (bgb bub : (⟨2, ![1, 2048]⟩ : Shape).Idx → EReal) (sz sn : (⟨2, ![1, 1]⟩ : Shape).Idx → EReal)
    (x : (⟨2, ![M, 1024]⟩ : Shape).Idx → EReal) (h : (⟨2, ![M, 2048]⟩ : Shape).Idx → EReal)
    (W1 : (⟨2, ![256, 1024]⟩ : Shape).Idx → EReal) (W2 : (⟨2, ![2048, 256]⟩ : Shape).Idx → EReal)
    (U1 : (⟨2, ![256, 2048]⟩ : Shape).Idx → EReal) (U2 : (⟨2, ![2048, 256]⟩ : Shape).Idx → EReal)
    (bg bu : (⟨2, ![1, 2048]⟩ : Shape).Idx → EReal)
    (zeta nu : (⟨2, ![1, 1]⟩ : Shape).Idx → EReal) (p : Fin N) (b : Fin M) (j : Fin 2048)
    (hx : ∀ i : Fin 1024, xb (ix2 p i) = x (ix2 b i)) (hh : ∀ k : Fin 2048, hb (ix2 p k) = h (ix2 b k))
    (h1 : ∀ (i : Fin 1024) (r : Fin 256), W1T (ix2 i r) = W1 (ix2 r i))
    (h2 : ∀ (r : Fin 256) (j : Fin 2048), W2T (ix2 r j) = W2 (ix2 j r))
    (h3 : ∀ (k : Fin 2048) (r : Fin 256), U1T (ix2 k r) = U1 (ix2 r k))
    (h4 : ∀ (r : Fin 256) (j : Fin 2048), U2T (ix2 r j) = U2 (ix2 j r))
    (hbg : bgb (ix2 (0 : Fin 1) j) = bg (ix2 (0 : Fin 1) j)) (hbu : bub (ix2 (0 : Fin 1) j) = bu (ix2 (0 : Fin 1) j))
    (hsz : sz (ix2 (0 : Fin 1) (0 : Fin 1)) = sgm (zeta (ix2 (0 : Fin 1) (0 : Fin 1))))
    (hsn : sn (ix2 (0 : Fin 1) (0 : Fin 1)) = sgm (nu (ix2 (0 : Fin 1) (0 : Fin 1)))) :
    B xb hb W1T W2T U1T U2T bgb bub sz sn (ix2 p j) = G x h W1 W2 U1 U2 bg bu zeta nu (ix2 b j) := by
  rw [B_apply, G_apply, hsz, hsn, hh j, hbg, hbu]
  have hpre : preCols xb hb W1T W2T U1T U2T p j = preRows x h W1 W2 U1 U2 b j := by
    unfold preCols preRows
    simp only [hx, hh, h1, h2, h3, h4]
  rw [hpre]

end Cert.GatedCell

end
-- ==== Proof.RefCell.lean ====
/-
  The reference computes the cell: its result array, read entry by entry, is `Cert.GatedCell.G` of its ten arguments.

  Each of its four contractions is a sum over the shared coordinate of a row of the left operand against a row of the
  right one (the weights are used as given, `[rank, in]` and `[hidden, rank]`); the gate's logistic is spelt
  `1 / (1 + e^(−v))` on the host, which is `sgm`; `tanh` is the one function; the two scalar gates are that same quotient of
  ζ and ν, broadcast; the rest is entrywise arithmetic in the order `z · h + (σζ · (1 − z) + σν) · c`.
-/
import proofs.«135194_j29222957482088_2_alg».proof.Proof.Gen.ReferenceIdeal.Read
import proofs.«135194_j29222957482088_2_alg».proof.Proof.CellSpec

noncomputable section

open scoped BigOperators

namespace Cert.ReferenceIdeal.CellValue

open Cert.ReferenceIdeal Cert.ReferenceIdeal.Read Idealize.ShloMosaic Idealize.ShloMosaic.ValueIdx Cert.GatedCell

/-! ## Where each stage reads its operands -/

theorem lidx_v0 (b : Fin 8192) (r : Fin 256) (k : Fin 1024) : lidx_main_v0 (ix2 b r) k = ix2 b k :=
  funext fun a => match a with | ⟨0, _⟩ => rfl | ⟨1, _⟩ => rfl
theorem ridx_v0 (b : Fin 8192) (r : Fin 256) (k : Fin 1024) : ridx_main_v0 (ix2 b r) k = ix2 r k :=
  funext fun a => match a with | ⟨0, _⟩ => rfl | ⟨1, _⟩ => rfl
theorem lidx_v1 (b : Fin 8192) (j : Fin 2048) (r : Fin 256) : lidx_main_v1 (ix2 b j) r = ix2 b r :=
  funext fun a => match a with | ⟨0, _⟩ => rfl | ⟨1, _⟩ => rfl
theorem ridx_v1 (b : Fin 8192) (j : Fin 2048) (r : Fin 256) : ridx_main_v1 (ix2 b j) r = ix2 j r :=
  funext fun a => match a with | ⟨0, _⟩ => rfl | ⟨1, _⟩ => rfl
theorem lidx_v2 (b : Fin 8192) (r : Fin 256) (k : Fin 2048) : lidx_main_v2 (ix2 b r) k = ix2 b k :=
  funext fun a => match a with | ⟨0, _⟩ => rfl | ⟨1, _⟩ => rfl
theorem ridx_v2 (b : Fin 8192) (r : Fin 256) (k : Fin 2048) : ridx_main_v2 (ix2 b r) k = ix2 r k :=
  funext fun a => match a with | ⟨0, _⟩ => rfl | ⟨1, _⟩ => rfl
theorem lidx_v3 (b : Fin 8192) (j : Fin 2048) (r : Fin 256) : lidx_main_v3 (ix2 b j) r = ix2 b r :=
  funext fun a => match a with | ⟨0, _⟩ => rfl | ⟨1, _⟩ => rfl
theorem ridx_v3 (b : Fin 8192) (j : Fin 2048) (r : Fin 256) : ridx_main_v3 (ix2 b j) r = ix2 j r :=
  funext fun a => match a with | ⟨0, _⟩ => rfl | ⟨1, _⟩ => rfl
theorem idx_v5 (b : Fin 8192) (j : Fin 2048) : idx_main_v5 (ix2 b j) = ix2 (0 : Fin 1) j :=
  funext fun a => match a with | ⟨0, _⟩ => rfl | ⟨1, _⟩ => rfl
theorem idx_v13 (b : Fin 8192) (j : Fin 2048) : idx_main_v13 (ix2 b j) = ix2 (0 : Fin 1) j :=
  funext fun a => match a with | ⟨0, _⟩ => rfl | ⟨1, _⟩ => rfl
theorem idx_v25 (b : Fin 8192) (j : Fin 2048) : idx_main_v25 (ix2 b j) = ix2 (0 : Fin 1) (0 : Fin 1) :=
  funext fun a => match a with | ⟨0, _⟩ => rfl | ⟨1, _⟩ => rfl
theorem idx_v33 (b : Fin 8192) (j : Fin 2048) : idx_main_v33 (ix2 b j) = ix2 (0 : Fin 1) (0 : Fin 1) :=
  funext fun a => match a with | ⟨0, _⟩ => rfl | ⟨1, _⟩ => rfl

/-! ## The pre-activation -/

/-- The sum of the two low-rank products at `(b, j)` is the specification's pre-activation. -/
theorem pre_eq (x0 : (⟨S8192x1024, .f32⟩ : BufTy).Contents (Elt Ideal)) (x1 : (⟨S8192x2048, .f32⟩ : BufTy).Contents (Elt Ideal))
    (x2 : (⟨S256x1024, .f32⟩ : BufTy).Contents (Elt Ideal)) (x3 : (⟨S2048x256, .f32⟩ : BufTy).Contents (Elt Ideal))
    (x4 : (⟨S256x2048, .f32⟩ : BufTy).Contents (Elt Ideal)) (x5 : (⟨S2048x256, .f32⟩ : BufTy).Contents (Elt Ideal))
    (b : Fin 8192) (j : Fin 2048) :
    val_main_v4 (F := Ideal) x0 x1 x2 x3 x4 x5 (ix2 b j) = preRows x0 x1 x2 x3 x4 x5 b j := by
  rw [val_main_v4_apply, val_main_v1_apply, val_main_v3_apply]
  unfold preRows
  show _ + _ = _ + _
  congr 1
  · refine Finset.sum_congr rfl fun r _ => ?_
    rw [lidx_v1, ridx_v1, val_main_v0_apply]
    simp only [lidx_v0, ridx_v0]
  · refine Finset.sum_congr rfl fun r _ => ?_
    rw [lidx_v3, ridx_v3, val_main_v2_apply]
    simp only [lidx_v2, ridx_v2]

/-! ## The scalar gates -/

/-- The host's quotient spelling of the logistic of ζ, read at its one entry. -/
theorem gate_zeta (x8 : (⟨S1x1, .f32⟩ : BufTy).Contents (Elt Ideal)) :
    val_main_v22 (F := Ideal) x8 (ix2 (0 : Fin 1) (0 : Fin 1)) = sgm (x8 (ix2 (0 : Fin 1) (0 : Fin 1))) := by
  rw [val_main_v22_apply, val_main_v21_apply, val_main_cst_2_apply, val_main_v20_apply, val_main_v19_apply,
    val_main_cst_1_apply, val_main_v18_apply, val_main_v17_apply]
  rfl

/-- The same of ν. -/
theorem gate_nu (x9 : (⟨S1x1, .f32⟩ : BufTy).Contents (Elt Ideal)) :
    val_main_v32 (F := Ideal) x9 (ix2 (0 : Fin 1) (0 : Fin 1)) = sgm (x9 (ix2 (0 : Fin 1) (0 : Fin 1))) := by
  rw [val_main_v32_apply, val_main_v31_apply, val_main_cst_5_apply, val_main_v30_apply, val_main_v29_apply,
    val_main_cst_4_apply, val_main_v28_apply, val_main_v27_apply]
  rfl

/-! ## The result -/

/-- THE REFERENCE'S RESULT is the cell of its arguments. -/
theorem result_eq (x0 : (⟨S8192x1024, .f32⟩ : BufTy).Contents (Elt Ideal)) (x1 : (⟨S8192x2048, .f32⟩ : BufTy).Contents (Elt Ideal))
    (x2 : (⟨S256x1024, .f32⟩ : BufTy).Contents (Elt Ideal)) (x3 : (⟨S2048x256, .f32⟩ : BufTy).Contents (Elt Ideal))
    (x4 : (⟨S256x2048, .f32⟩ : BufTy).Contents (Elt Ideal)) (x5 : (⟨S2048x256, .f32⟩ : BufTy).Contents (Elt Ideal))
    (x6 x7 : (⟨S1x2048, .f32⟩ : BufTy).Contents (Elt Ideal)) (x8 x9 : (⟨S1x1, .f32⟩ : BufTy).Contents (Elt Ideal)) :
    val_main_v36 (F := Ideal) x0 x1 x2 x3 x4 x5 x6 x7 x8 x9 = G x0 x1 x2 x3 x4 x5 x6 x7 x8 x9 := by
  funext i
  obtain ⟨b, j, rfl⟩ : ∃ (b : Fin 8192) (j : Fin 2048), i = ix2 b j := ⟨i 0, i 1, eq_ix2 i⟩
  rw [G_apply, val_main_v36_apply, val_main_v16_apply, val_main_v35_apply, val_main_v34_apply, val_main_v15_apply,
    val_main_v14_apply, val_main_v13_apply, val_main_v26_apply, val_main_v33_apply, val_main_v25_apply, val_main_v24_apply,
    val_main_v23_apply, val_main_cst_3_apply, val_main_v12_apply, val_main_v11_apply, val_main_cst_0_apply,
    val_main_v10_apply, val_main_v9_apply, val_main_cst_apply, val_main_v8_apply, val_main_v7_apply, val_main_v6_apply,
    val_main_v5_apply, idx_v5, idx_v13, idx_v25, idx_v33, gate_zeta, gate_nu, pre_eq]
  rfl

end Cert.ReferenceIdeal.CellValue

end
-- ==== Proof.LibChebAlgebra.lean ====
/-
  General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.LibHostForms.lean ====
/-
  Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«135194_j29222957482088_2_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«135194_j29222957482088_2_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.LibBlockReads.lean ====
/-
  Two reads at an index that a tiled rank-2 kernel body meets, for arrays of any sizes.

  * A load through a unit-stride rectangle of a matrix, read at `(a, c)` of the rectangle, is the matrix at
    `(o0 + a, o1 + c)`, where `(o0, o1)` is the rectangle's corner.
  * A `[1, 1]` array broadcast to `[a, b]` reads its one entry everywhere.
-/
import Idealize.ShloMosaic.Lib.ValueIdx
import Idealize.ShloMosaic.Lib.Pipeline.Value

noncomputable section

namespace Cert.BlockReads

open Idealize.ShloMosaic Idealize.ShloMosaic.ValueIdx

/-- A load through the rectangle with corner `(o0, o1)` and sizes `(m0, m1)`, at `(a, c)`: the matrix at the shifted
    coordinates (named by the caller, with the two additions as hypotheses). -/
theorem ld_unit2_apply {Val : EltTy → Type} {e : EltTy} {n0 n1 m0 m1 o0 o1 : Nat}
    (X : (⟨2, ![n0, n1]⟩ : Shape).Idx → Val e)
    (inb : ∀ d, (![o0, o1] : Fin 2 → Nat) d + (![m0, m1] : Fin 2 → Nat) d ≤ (⟨2, ![n0, n1]⟩ : Shape).size d)
    (a : Fin m0) (c : Fin m1) (a' : Fin n0) (c' : Fin n1) (ha : a'.val = o0 + a.val) (hc : c'.val = o1 + c.val) :
    View.ld X (Rect.unit (s := ⟨2, ![n0, n1]⟩) ![o0, o1] ![m0, m1] inb) (ix2 a c) = X (ix2 a' c') := by
  show X _ = X _
  refine congrArg X (funext fun d => Fin.ext ?_)
  match d with
  | ⟨0, _⟩ => show o0 + 1 * a.val = a'.val; omega
  | ⟨1, _⟩ => show o1 + 1 * c.val = c'.val; omega

/-- A `[1, 1]` array broadcast to `[a, b]` reads, at `(p, c)`, its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.BlockReads

end
-- ==== Proof.KernelBlock.lean ====
/-
  What the kernel body leaves in its output block, as ONE function of the blocks it loads.

  The body forms the two rank-256 intermediates `x · W1ᵀ` and `h · U1ᵀ` once (each entry a sum over the inner coordinate
  of a row against a column of the transposed weight), then, for each half of the 2048 hidden columns, multiplies
  them by that half's 1024 columns of `W2ᵀ` and `U2ᵀ`, adds the half's bias rows, applies the logistic and `tanh`,
  and combines with the same half of the state block. Entry `(p, j)` of the stored block is therefore the cell `B` of
  the loaded blocks at `(p, j)` — the left half `j < 1024` from the first store, the right half from the second.
-/
import proofs.«135194_j29222957482088_2_alg».proof.Proof.Gen.KernelIdeal.Frame
import proofs.«135194_j29222957482088_2_alg».proof.Proof.LibMatmulForms
import proofs.«135194_j29222957482088_2_alg».proof.Proof.LibBlockReads
import proofs.«135194_j29222957482088_2_alg».proof.Proof.CellSpec
import Idealize.ShloMosaic.Lib.ValueLayout

noncomputable section

open scoped BigOperators

namespace Cert.KernelIdeal.CellValue

open Cert.KernelIdeal Cert.KernelIdeal.Gen Idealize.ShloMosaic Idealize.ShloMosaic.ValueIdx Cert.GatedCell Cert.BlockReads

/-! ## The rank-256 intermediates -/

/-- Entry `(p, r)` of the input block times the transposed first weight. -/
theorem pay3_apply (v0 : FVec Ideal S512x1024 .f32) (v4 : FVec Ideal S1024x256 .bf16) (p : Fin 512) (r : Fin 256) :
    k0_pay3 (F := Ideal) v0 v4 (ix2 p r) = ∑ i : Fin 1024, v0 (ix2 p i) * v4 (ix2 i r) := by
  unfold k0_pay3
  refine (MatmulForms.matmul_zero_mm_apply dot_S512x1024_S1024x256_S512x256_1_0_0_1_n_n rfl rfl rfl rfl rfl rfl none _ _ p r).trans ?_
  rw [shapeCast_self]
  rfl

/-- Entry `(p, r)` of the state block times the transposed first recurrent weight. -/
theorem pay4_apply (v2 : FVec Ideal S512x2048 .f32) (v6 : FVec Ideal S2048x256 .bf16) (p : Fin 512) (r : Fin 256) :
    k0_pay4 (F := Ideal) v2 v6 (ix2 p r) = ∑ k : Fin 2048, v2 (ix2 p k) * v6 (ix2 k r) := by
  unfold k0_pay4
  refine (MatmulForms.matmul_zero_mm_apply dot_S512x2048_S2048x256_S512x256_1_0_0_1_n_n rfl rfl rfl rfl rfl rfl none _ _ p r).trans ?_
  rw [shapeCast_self]
  rfl

/-! ## Entrywise operations at an index -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## One half of the pre-activation -/

/-- A rank-256 intermediate times 1024 columns of a transposed second weight, at `(p, q)`. -/
theorem mm2_apply (a : FVec Ideal S512x256 .bf16) (w : FVec Ideal S256x1024 .bf16) (h : S256x1024.ShapeCasts S256x1024)
    (p : Fin 512) (q : Fin 1024) :
    matmul (F := Ideal) dot_S512x256_S256x1024_S512x1024_1_0_0_1_n_n none a (shapeCast S256x1024 w h)
        (constant (F := Ideal) S512x1024 .f32 0x00000000#32) (ix2 p q)
      = ∑ r : Fin 256, a (ix2 p r) * w (ix2 r q) := by
  refine (MatmulForms.matmul_zero_mm_apply dot_S512x256_S256x1024_S512x1024_1_0_0_1_n_n rfl rfl rfl rfl rfl rfl none _ _ p q).trans ?_
  rw [shapeCast_self]

/-- Entry `(p, q)` of the two low-rank products summed, for the 1024 columns `v16`, `v18` of the second weights. -/
theorem pay7_apply (v0 : FVec Ideal S512x1024 .f32) (v2 : FVec Ideal S512x2048 .f32) (v4 : FVec Ideal S1024x256 .bf16)
    (v6 : FVec Ideal S2048x256 .bf16) (v16 v18 : FVec Ideal S256x1024 .bf16) (p : Fin 512) (q : Fin 1024) :
    k0_pay7 (F := Ideal) v0 v2 v4 v6 v16 v18 (ix2 p q)
      = (∑ r : Fin 256, (∑ i : Fin 1024, v0 (ix2 p i) * v4 (ix2 i r)) * v16 (ix2 r q))
        + ∑ r : Fin 256, (∑ k : Fin 2048, v2 (ix2 p k) * v6 (ix2 k r)) * v18 (ix2 r q) := by
  unfold k0_pay7
  refine (addf_apply _ _ _).trans ?_
  refine congrArg₂ (· + ·) ?_ ?_
  · refine (MatmulForms.matmul_zero_mm_apply dot_S512x256_S256x1024_S512x1024_1_0_0_1_n_n rfl rfl rfl rfl rfl rfl none _ _ p q).trans ?_
    refine Finset.sum_congr rfl fun r _ => ?_
    rw [pay3_apply, shapeCast_self]
  · refine (MatmulForms.matmul_zero_mm_apply dot_S512x256_S256x1024_S512x1024_1_0_0_1_n_n rfl rfl rfl rfl rfl rfl none _ _ p q).trans ?_
    refine Finset.sum_congr rfl fun r _ => ?_
    rw [pay4_apply, shapeCast_self]

/-- The gate of the first half at `(p, q)`. -/
theorem pay8_apply (v0 : FVec Ideal S512x1024 .f32) (v2 : FVec Ideal S512x2048 .f32) (v4 : FVec Ideal S1024x256 .bf16)
    (v6 : FVec Ideal S2048x256 .bf16) (v16 v18 : FVec Ideal S256x1024 .bf16) (v23 : FVec Ideal S1x1024 .f32) (p : Fin 512) (q : Fin 1024) :
    k0_pay8 (F := Ideal) v0 v2 v4 v6 v16 v18 v23 (ix2 p q)
      = sgm (k0_pay7 (F := Ideal) v0 v2 v4 v6 v16 v18 (ix2 p q) + v23 (ix2 (0 : Fin 1) q)) := by
  unfold k0_pay8
  simp only [logistic_apply, addf_apply, logistic_eq_sgm]
  rw [broadcastTo_1b_ab_apply]

/-- The candidate of the first half at `(p, q)`. -/
theorem pay9_apply (v0 : FVec Ideal S512x1024 .f32) (v2 : FVec Ideal S512x2048 .f32) (v4 : FVec Ideal S1024x256 .bf16)
    (v6 : FVec Ideal S2048x256 .bf16) (v16 v18 : FVec Ideal S256x1024 .bf16) (v24 : FVec Ideal S1x1024 .f32) (p : Fin 512) (q : Fin 1024) :
    k0_pay9 (F := Ideal) v0 v2 v4 v6 v16 v18 v24 (ix2 p q)
      = Ideal.tanh (k0_pay7 (F := Ideal) v0 v2 v4 v6 v16 v18 (ix2 p q) + v24 (ix2 (0 : Fin 1) q)) := by
  unfold k0_pay9
  simp only [tanh_apply, addf_apply]
  rw [broadcastTo_1b_ab_apply]

/-- One minus the gate. -/
theorem pay10_apply (v0 : FVec Ideal S512x1024 .f32) (v2 : FVec Ideal S512x2048 .f32) (v4 : FVec Ideal S1024x256 .bf16)
    (v6 : FVec Ideal S2048x256 .bf16) (v16 v18 : FVec Ideal S256x1024 .bf16) (v23 : FVec Ideal S1x1024 .f32) (p : Fin 512) (q : Fin 1024) :
    k0_pay10 (F := Ideal) v0 v2 v4 v6 v16 v18 v23 (ix2 p q)
      = one - k0_pay8 (F := Ideal) v0 v2 v4 v6 v16 v18 v23 (ix2 p q) := by
  unfold k0_pay10
  rfl

/-- The first scalar gate, broadcast. -/
theorem pay11_apply (v12 : FVec Ideal S1x1 .f32) (p : Fin 512) (q : Fin 1024) :
    k0_pay11 (F := Ideal) v12 (ix2 p q) = v12 (ix2 (0 : Fin 1) (0 : Fin 1)) := by
  unfold k0_pay11 k0_pay5
  rw [broadcastTo_11_ab_apply, shapeCast_self]

theorem pay6_eq (v14 : FVec Ideal S1x1 .f32) : k0_pay6 (F := Ideal) v14 = v14 := by
  unfold k0_pay6
  rw [shapeCast_self]

theorem pay5_eq (v12 : FVec Ideal S1x1 .f32) : k0_pay5 (F := Ideal) v12 = v12 := by
  unfold k0_pay5
  rw [shapeCast_self]

/-! ## The two stored values -/

/-- The first store's value at `(p, q)`: gate times the state's left half plus the mixed gate times the candidate. -/
theorem pay1_apply (v2 : FVec Ideal S512x2048 .f32) (v15 : FVec Ideal S1x1 .f32) (v27 v30 v32 v33 : FVec Ideal S512x1024 .f32)
    (p : Fin 512) (q : Fin 1024) (j : Fin 2048) (hj : j.val = 0 + q.val) :
    k0_pay1 (F := Ideal) v2 v15 v27 v30 v32 v33 (ix2 p q)
      = v27 (ix2 p q) * v2 (ix2 p j)
        + (v33 (ix2 p q) * v32 (ix2 p q) + v15 (ix2 (0 : Fin 1) (0 : Fin 1))) * v30 (ix2 p q) := by
  unfold k0_pay1
  simp only [addf_apply, mulf_apply]
  rw [broadcastTo_11_ab_apply, slice2_axis1_apply 0 v2 _ p q j hj]

/-- The second store's value at `(p, q)`: the same cell over the right half's columns. -/
theorem pay2_apply (v2 : FVec Ideal S512x2048 .f32) (v9 v11 : FVec Ideal S512x256 .bf16) (v13 v15 : FVec Ideal S1x1 .f32)
    (v42 v44 : FVec Ideal S256x1024 .bf16) (v49 v50 : FVec Ideal S1x1024 .f32)
    (p : Fin 512) (q : Fin 1024) (j : Fin 2048) (hj : j.val = 1024 + q.val) :
    k0_pay2 (F := Ideal) v2 v9 v11 v13 v15 v42 v44 v49 v50 (ix2 p q)
      = cell (v13 (ix2 (0 : Fin 1) (0 : Fin 1))) (v15 (ix2 (0 : Fin 1) (0 : Fin 1)))
          ((∑ r : Fin 256, v9 (ix2 p r) * v42 (ix2 r q)) + ∑ r : Fin 256, v11 (ix2 p r) * v44 (ix2 r q))
          (v49 (ix2 (0 : Fin 1) q)) (v50 (ix2 (0 : Fin 1) q)) (v2 (ix2 p j)) := by
  unfold k0_pay2 cell
  simp only [addf_apply, mulf_apply, subf_apply, logistic_apply, tanh_apply, broadcast_apply, logistic_eq_sgm]
  rw [broadcastTo_11_ab_apply, broadcastTo_11_ab_apply, broadcastTo_1b_ab_apply, broadcastTo_1b_ab_apply,
    slice2_axis1_apply 1024 v2 _ p q j hj, mm2_apply, mm2_apply]
  rfl

/-! ## The stored block is the cell of the loaded blocks -/

theorem zero_off : (![0, 0] : Fin 2 → Nat) = fun _ => 0 := funext fun a => by fin_cases a <;> rfl

/-- THE LEFT HALF: the first store's value at `(p, q)` is the cell at column `j = q`. -/
theorem piece_left (x0 : Vec Ideal S512x1024 .f32) (x1 : Vec Ideal S512x2048 .f32) (x2 : Vec Ideal S1024x256 .bf16)
    (x3 : Vec Ideal S256x2048 .bf16) (x4 : Vec Ideal S2048x256 .bf16) (x5 : Vec Ideal S256x2048 .bf16)
    (x6 x7 : Vec Ideal S1x2048 .f32) (x8 x9 : Vec Ideal S1x1 .f32) (p : Fin 512) (q : Fin 1024) (j : Fin 2048) (hj : j.val = 0 + q.val) :
    k0_pay1 (F := Ideal) (View.ld x1 r0_1) (k0_pay6 (View.ld x9 r0_4))
        (k0_pay8 (View.ld x0 r0_0) (View.ld x1 r0_1) (View.ld x2 r0_2) (View.ld x4 r0_3) (View.ld x3 r0_5) (View.ld x5 r0_5) (View.ld x6 r0_6))
        (k0_pay9 (View.ld x0 r0_0) (View.ld x1 r0_1) (View.ld x2 r0_2) (View.ld x4 r0_3) (View.ld x3 r0_5) (View.ld x5 r0_5) (View.ld x7 r0_6))
        (k0_pay10 (View.ld x0 r0_0) (View.ld x1 r0_1) (View.ld x2 r0_2) (View.ld x4 r0_3) (View.ld x3 r0_5) (View.ld x5 r0_5) (View.ld x6 r0_6))
        (k0_pay11 (View.ld x8 r0_4)) (ix2 p q)
      = B x0 x1 x2 x3 x4 x5 x6 x7 x8 x9 (ix2 p j) := by
  simp only [View.ld_unit_zero (S := S512x1024) zero_off, View.ld_unit_zero (S := S512x2048) zero_off,
    View.ld_unit_zero (S := S1024x256) zero_off, View.ld_unit_zero (S := S2048x256) zero_off, View.ld_unit_zero (S := S1x1) zero_off]
  have e3 : ∀ r : Fin 256, View.ld x3 r0_5 (ix2 r q) = x3 (ix2 r j) := fun r =>
    ld_unit2_apply x3 _ r q r j (Nat.zero_add _).symm hj
  have e5 : ∀ r : Fin 256, View.ld x5 r0_5 (ix2 r q) = x5 (ix2 r j) := fun r =>
    ld_unit2_apply x5 _ r q r j (Nat.zero_add _).symm hj
  have e6 : View.ld x6 r0_6 (ix2 (0 : Fin 1) q) = x6 (ix2 (0 : Fin 1) j) :=
    ld_unit2_apply x6 _ (0 : Fin 1) q (0 : Fin 1) j rfl hj
  have e7 : View.ld x7 r0_6 (ix2 (0 : Fin 1) q) = x7 (ix2 (0 : Fin 1) j) :=
    ld_unit2_apply x7 _ (0 : Fin 1) q (0 : Fin 1) j rfl hj
  rw [pay1_apply _ _ _ _ _ _ p q j hj, pay10_apply, pay8_apply, pay9_apply, pay11_apply, pay6_eq, pay7_apply, B_apply, e6, e7]
  unfold cell preCols
  simp only [e3, e5]

/-- THE RIGHT HALF: the second store's value at `(p, q)` is the cell at column `j = 1024 + q`. -/
theorem piece_right (x0 : Vec Ideal S512x1024 .f32) (x1 : Vec Ideal S512x2048 .f32) (x2 : Vec Ideal S1024x256 .bf16)
    (x3 : Vec Ideal S256x2048 .bf16) (x4 : Vec Ideal S2048x256 .bf16) (x5 : Vec Ideal S256x2048 .bf16)
    (x6 x7 : Vec Ideal S1x2048 .f32) (x8 x9 : Vec Ideal S1x1 .f32) (p : Fin 512) (q : Fin 1024) (j : Fin 2048) (hj : j.val = 1024 + q.val) :
    k0_pay2 (F := Ideal) (View.ld x1 r0_1) (k0_pay3 (View.ld x0 r0_0) (View.ld x2 r0_2)) (k0_pay4 (View.ld x1 r0_1) (View.ld x4 r0_3))
        (k0_pay5 (View.ld x8 r0_4)) (k0_pay6 (View.ld x9 r0_4)) (View.ld x3 r0_8) (View.ld x5 r0_8) (View.ld x6 r0_9) (View.ld x7 r0_9) (ix2 p q)
      = B x0 x1 x2 x3 x4 x5 x6 x7 x8 x9 (ix2 p j) := by
  simp only [View.ld_unit_zero (S := S512x1024) zero_off, View.ld_unit_zero (S := S512x2048) zero_off,
    View.ld_unit_zero (S := S1024x256) zero_off, View.ld_unit_zero (S := S2048x256) zero_off, View.ld_unit_zero (S := S1x1) zero_off]
  have e3 : ∀ r : Fin 256, View.ld x3 r0_8 (ix2 r q) = x3 (ix2 r j) := fun r =>
    ld_unit2_apply x3 _ r q r j (Nat.zero_add _).symm hj
  have e5 : ∀ r : Fin 256, View.ld x5 r0_8 (ix2 r q) = x5 (ix2 r j) := fun r =>
    ld_unit2_apply x5 _ r q r j (Nat.zero_add _).symm hj
  have e6 : View.ld x6 r0_9 (ix2 (0 : Fin 1) q) = x6 (ix2 (0 : Fin 1) j) :=
    ld_unit2_apply x6 _ (0 : Fin 1) q (0 : Fin 1) j rfl hj
  have e7 : View.ld x7 r0_9 (ix2 (0 : Fin 1) q) = x7 (ix2 (0 : Fin 1) j) :=
    ld_unit2_apply x7 _ (0 : Fin 1) q (0 : Fin 1) j rfl hj
  rw [pay2_apply _ _ _ _ _ _ _ _ _ p q j hj, pay5_eq, pay6_eq, B_apply, e6, e7]
  unfold preCols
  simp only [pay3_apply, pay4_apply, e3, e5]

/-- THE BLOCK: what the body leaves in the output block is the cell `B` of the ten loaded blocks, at every entry. -/
theorem out_eq (x0 : Vec Ideal S512x1024 .f32) (x1 : Vec Ideal S512x2048 .f32) (x2 : Vec Ideal S1024x256 .bf16)
    (x3 : Vec Ideal S256x2048 .bf16) (x4 : Vec Ideal S2048x256 .bf16) (x5 : Vec Ideal S256x2048 .bf16)
    (x6 x7 : Vec Ideal S1x2048 .f32) (x8 x9 : Vec Ideal S1x1 .f32) :
    out0_10 (F := Ideal) x0 x1 x2 x3 x4 x5 x6 x7 x8 x9 = B x0 x1 x2 x3 x4 x5 x6 x7 x8 x9 := by
  funext y
  unfold out0_10
  refine View.canon_apply_of_pieces (Val := Elt Ideal) (S := S512x2048) (e := .f32) (B x0 x1 x2 x3 x4 x5 x6 x7 x8 x9) _ (fun pc hpc => ?_) y (cover0_10 _ _ y)
  rcases List.mem_cons.mp hpc with rfl | hpc
  · intro x
    obtain ⟨p, q, rfl⟩ : ∃ (p : Fin 512) (q : Fin 1024), x = ix2 p q := ⟨x 0, x 1, eq_ix2 x⟩
    have he : r0_10.emb (ix2 p q) = ix2 p (⟨1024 + q.val, by have := q.isLt; omega⟩ : Fin 2048) :=
      funext fun d => Fin.ext (by
        match d with
        | ⟨0, _⟩ => show 0 + 1 * p.val = p.val; omega
        | ⟨1, _⟩ => show 1024 + 1 * q.val = 1024 + q.val; omega)
    rw [he]
    exact piece_right x0 x1 x2 x3 x4 x5 x6 x7 x8 x9 p q _ rfl
  · rcases List.mem_singleton.mp hpc with rfl
    intro x
    obtain ⟨p, q, rfl⟩ : ∃ (p : Fin 512) (q : Fin 1024), x = ix2 p q := ⟨x 0, x 1, eq_ix2 x⟩
    have he : r0_7.emb (ix2 p q) = ix2 p (⟨0 + q.val, by have := q.isLt; omega⟩ : Fin 2048) :=
      funext fun d => Fin.ext (by
        match d with
        | ⟨0, _⟩ => show 0 + 1 * p.val = p.val; omega
        | ⟨1, _⟩ => show 0 + 1 * q.val = 0 + q.val; omega)
    rw [he]
    exact piece_left x0 x1 x2 x3 x4 x5 x6 x7 x8 x9 p q _ rfl

end Cert.KernelIdeal.CellValue

end
-- ==== Proof.CellArray.lean ====
/-
  From blocks to the array: after the run the kernel's result array is the cell `G` of the ten argument arrays.

  Grid point `t` (of 16) stages rows `512·t … 512·t + 511` of the input and of the state, the four transposed weights,
  the two bias rows and the two scalar gates whole, and writes back rows `512·t …` of the result. The transposed
  weights and the scalar gates are what the host operations before the region wrote: `W1ᵀ (i, r) = W1 (r, i)` and so
  on, and `1 / (1 + e^(−ζ))`, `1 / (1 + e^(−ν))`. So the block the body leaves, the cell `B` of the staged blocks, is at
  `(p, j)` the cell `G` of the arguments at `(512·t + p, j)`; the sixteen row blocks cover the array.
-/
import proofs.«135194_j29222957482088_2_alg».proof.Proof.Gen.KernelIdeal.Value
import proofs.«135194_j29222957482088_2_alg».proof.Proof.KernelBlock
import Idealize.ShloMosaic.Lib.StableHlo.Run
import Idealize.ShloMosaic.Lib.ValueLayout

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx Cert.GatedCell Cert.BlockReads
open Idealize.ShloMosaic.Pipeline (Dat)

variable (m : (ℓ : Loc nD τ sig) → Buf (Elt Ideal) ℓ) (ρ : Dev nD → PrngReg)

/-! ## Where each window's block sits -/

/-- The index maps over the 16 grid points: the input, the state and the result move down one row block per point; every
    other window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-! ## The staged blocks read at an entry -/

/-- Row `p` of the input's block at point `t` is row `512·t + p` of the input. -/
theorem blk0_apply (c : Dev nD) (t : Fin cfg0.N) (p : Fin 512) (i : Fin 1024) (b : Fin 8192) (hb : b.val = t.val * 512 + p.val) :
    iblk m c 0 t (ix2 p i) = V m c main_arg0 (ix2 b i) := by
  show V m c main_arg0 (((cfg0.win 0).blk t).view.emb (ix2 p i)) = V m c main_arg0 (ix2 b i)
  refine congrArg (V m c main_arg0) (funext fun a => Fin.ext ?_)
  obtain ⟨e0, e1, -⟩ := idx_facts t
  match a with
  | ⟨0, _⟩ => show win0_0.index t (0 : Fin 2) * 512 + 1 * p.val = b.val; omega
  | ⟨1, _⟩ => show win0_0.index t (1 : Fin 2) * 1024 + 1 * i.val = i.val; omega

/-- Row `p` of the state's block at point `t` is row `512·t + p` of the state. -/
theorem blk1_apply (c : Dev nD) (t : Fin cfg0.N) (p : Fin 512) (k : Fin 2048) (b : Fin 8192) (hb : b.val = t.val * 512 + p.val) :
    iblk m c 1 t (ix2 p k) = V m c main_arg1 (ix2 b k) := by
  show V m c main_arg1 (((cfg0.win 1).blk t).view.emb (ix2 p k)) = V m c main_arg1 (ix2 b k)
  refine congrArg (V m c main_arg1) (funext fun a => Fin.ext ?_)
  obtain ⟨-, -, e0, e1, -⟩ := idx_facts t
  match a with
  | ⟨0, _⟩ => show win0_1.index t (0 : Fin 2) * 512 + 1 * p.val = b.val; omega
  | ⟨1, _⟩ => show win0_1.index t (1 : Fin 2) * 2048 + 1 * k.val = k.val; omega

/-- The whole-array windows: the block at any point is the array. -/
theorem blk2_apply (c : Dev nD) (t : Fin cfg0.N) (i : Fin 1024) (r : Fin 256) :
    iblk m c 2 t (ix2 i r) = V m c main_v1 (ix2 i r) := by
  show V m c main_v1 (((cfg0.win 2).blk t).view.emb (ix2 i r)) = V m c main_v1 (ix2 i r)
  refine congrArg (V m c main_v1) (funext fun a => Fin.ext ?_)
  obtain ⟨-, -, -, -, e0, e1, -⟩ := idx_facts t
  match a with
  | ⟨0, _⟩ => show win0_2.index t (0 : Fin 2) * 1024 + 1 * i.val = i.val; omega
  | ⟨1, _⟩ => show win0_2.index t (1 : Fin 2) * 256 + 1 * r.val = r.val; omega

theorem blk3_apply (c : Dev nD) (t : Fin cfg0.N) (r : Fin 256) (j : Fin 2048) :
    iblk m c 3 t (ix2 r j) = V m c main_v3 (ix2 r j) := by
  show V m c main_v3 (((cfg0.win 3).blk t).view.emb (ix2 r j)) = V m c main_v3 (ix2 r j)
  refine congrArg (V m c main_v3) (funext fun a => Fin.ext ?_)
  obtain ⟨-, -, -, -, -, -, e0, e1, -⟩ := idx_facts t
  match a with
  | ⟨0, _⟩ => show win0_3.index t (0 : Fin 2) * 256 + 1 * r.val = r.val; omega
  | ⟨1, _⟩ => show win0_3.index t (1 : Fin 2) * 2048 + 1 * j.val = j.val; omega

theorem blk4_apply (c : Dev nD) (t : Fin cfg0.N) (k : Fin 2048) (r : Fin 256) :
    iblk m c 4 t (ix2 k r) = V m c main_v5 (ix2 k r) := by
  show V m c main_v5 (((cfg0.win 4).blk t).view.emb (ix2 k r)) = V m c main_v5 (ix2 k r)
  refine congrArg (V m c main_v5) (funext fun a => Fin.ext ?_)
  obtain ⟨-, -, -, -, -, -, -, -, e0, e1, -⟩ := idx_facts t
  match a with
  | ⟨0, _⟩ => show win0_4.index t (0 : Fin 2) * 2048 + 1 * k.val = k.val; omega
  | ⟨1, _⟩ => show win0_4.index t (1 : Fin 2) * 256 + 1 * r.val = r.val; omega

theorem blk5_apply (c : Dev nD) (t : Fin cfg0.N) (r : Fin 256) (j : Fin 2048) :
    iblk m c 5 t (ix2 r j) = V m c main_v7 (ix2 r j) := by
  show V m c main_v7 (((cfg0.win 5).blk t).view.emb (ix2 r j)) = V m c main_v7 (ix2 r j)
  refine congrArg (V m c main_v7) (funext fun a => Fin.ext ?_)
  obtain ⟨-, -, -, -, -, -, -, -, -, -, e0, e1, -⟩ := idx_facts t
  match a with
  | ⟨0, _⟩ => show win0_5.index t (0 : Fin 2) * 256 + 1 * r.val = r.val; omega
  | ⟨1, _⟩ => show win0_5.index t (1 : Fin 2) * 2048 + 1 * j.val = j.val; omega

theorem blk6_apply (c : Dev nD) (t : Fin cfg0.N) (j : Fin 2048) :
    iblk m c 6 t (ix2 (0 : Fin 1) j) = V m c main_arg6 (ix2 (0 : Fin 1) j) := by
  show V m c main_arg6 (((cfg0.win 6).blk t).view.emb (ix2 (0 : Fin 1) j)) = V m c main_arg6 (ix2 (0 : Fin 1) j)
  refine congrArg (V m c main_arg6) (funext fun a => Fin.ext ?_)
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 2048 + 1 * j.val = j.val; omega

theorem blk7_apply (c : Dev nD) (t : Fin cfg0.N) (j : Fin 2048) :
    iblk m c 7 t (ix2 (0 : Fin 1) j) = V m c main_arg7 (ix2 (0 : Fin 1) j) := by
  show V m c main_arg7 (((cfg0.win 7).blk t).view.emb (ix2 (0 : Fin 1) j)) = V m c main_arg7 (ix2 (0 : Fin 1) j)
  refine congrArg (V m c main_arg7) (funext fun a => Fin.ext ?_)
  obtain ⟨-, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 2048 + 1 * j.val = j.val; omega

theorem blk8_apply (c : Dev nD) (t : Fin cfg0.N) :
    iblk m c 8 t (ix2 (0 : Fin 1) (0 : Fin 1)) = V m c main_v13 (ix2 (0 : Fin 1) (0 : Fin 1)) := by
  show V m c main_v13 (((cfg0.win 8).blk t).view.emb (ix2 (0 : Fin 1) (0 : Fin 1))) = V m c main_v13 (ix2 (0 : Fin 1) (0 : Fin 1))
  refine congrArg (V m c main_v13) (funext fun a => Fin.ext ?_)
  obtain ⟨-, -, -, -, -, -, -, -, -, -, -, -, -, -, -, -, e0, e1, -⟩ := idx_facts t
  match a with
  | ⟨0, _⟩ => show win0_8.index t (0 : Fin 2) * 1 + 1 * 0 = 0; omega
  | ⟨1, _⟩ => show win0_8.index t (1 : Fin 2) * 1 + 1 * 0 = 0; omega

theorem blk9_apply (c : Dev nD) (t : Fin cfg0.N) :
    iblk m c 9 t (ix2 (0 : Fin 1) (0 : Fin 1)) = V m c main_v19 (ix2 (0 : Fin 1) (0 : Fin 1)) := by
  show V m c main_v19 (((cfg0.win 9).blk t).view.emb (ix2 (0 : Fin 1) (0 : Fin 1))) = V m c main_v19 (ix2 (0 : Fin 1) (0 : Fin 1))
  refine congrArg (V m c main_v19) (funext fun a => Fin.ext ?_)
  obtain ⟨-, -, -, -, -, -, -, -, -, -, -, -, -, -, -, -, -, -, e0, e1, -⟩ := idx_facts t
  match a with
  | ⟨0, _⟩ => show win0_9.index t (0 : Fin 2) * 1 + 1 * 0 = 0; omega
  | ⟨1, _⟩ => show win0_9.index t (1 : Fin 2) * 1 + 1 * 0 = 0; omega

/-! ## What the host operations before the region wrote -/

/-- The first weight transposed: `(i, r) ↦ W1 (r, i)`. -/
theorem V_v1_apply (c : Dev nD) (i : Fin 1024) (r : Fin 256) :
    V m c main_v1 (ix2 i r) = m ((c : Thread nD τ).loc main_arg2) (ix2 r i) := by
  have e : (V m c main_v1 : S1024x256.Idx → EReal)
      = truncf (F := Ideal) .bf16 (transpose S1024x256 [1, 0] (m ((c : Thread nD τ).loc main_arg2)) Gen.transposes_S256x1024_S1024x256_1_0) Gen.bitsLt_bf16_f32 := by
    dsimp only [V, hostOps0]; after_results
  rw [e]
  exact transpose_ix2_apply (m ((c : Thread nD τ).loc main_arg2)) _ i r

/-- The second weight transposed: `(r, j) ↦ W2 (j, r)`. -/
theorem V_v3_apply (c : Dev nD) (r : Fin 256) (j : Fin 2048) :
    V m c main_v3 (ix2 r j) = m ((c : Thread nD τ).loc main_arg3) (ix2 j r) := by
  have e : (V m c main_v3 : S256x2048.Idx → EReal)
      = truncf (F := Ideal) .bf16 (transpose S256x2048 [1, 0] (m ((c : Thread nD τ).loc main_arg3)) Gen.transposes_S2048x256_S256x2048_1_0) Gen.bitsLt_bf16_f32 := by
    dsimp only [V, hostOps0]; after_results
  rw [e]
  exact transpose_ix2_apply (m ((c : Thread nD τ).loc main_arg3)) _ r j

/-- The first recurrent weight transposed: `(k, r) ↦ U1 (r, k)`. -/
theorem V_v5_apply (c : Dev nD) (k : Fin 2048) (r : Fin 256) :
    V m c main_v5 (ix2 k r) = m ((c : Thread nD τ).loc main_arg4) (ix2 r k) := by
  have e : (V m c main_v5 : S2048x256.Idx → EReal)
      = truncf (F := Ideal) .bf16 (transpose S2048x256 [1, 0] (m ((c : Thread nD τ).loc main_arg4)) Gen.transposes_S256x2048_S2048x256_1_0) Gen.bitsLt_bf16_f32 := by
    dsimp only [V, hostOps0]; after_results
  rw [e]
  exact transpose_ix2_apply (m ((c : Thread nD τ).loc main_arg4)) _ k r

/-- The second recurrent weight transposed: `(r, j) ↦ U2 (j, r)`. -/
theorem V_v7_apply (c : Dev nD) (r : Fin 256) (j : Fin 2048) :
    V m c main_v7 (ix2 r j) = m ((c : Thread nD τ).loc main_arg5) (ix2 j r) := by
  have e : (V m c main_v7 : S256x2048.Idx → EReal)
      = truncf (F := Ideal) .bf16 (transpose S256x2048 [1, 0] (m ((c : Thread nD τ).loc main_arg5)) Gen.transposes_S2048x256_S256x2048_1_0) Gen.bitsLt_bf16_f32 := by
    dsimp only [V, hostOps0]; after_results
  rw [e]
  exact transpose_ix2_apply (m ((c : Thread nD τ).loc main_arg5)) _ r j

/-- The first scalar gate: the logistic of ζ, spelt as the quotient. -/
theorem V_v13_apply (c : Dev nD) :
    V m c main_v13 (ix2 (0 : Fin 1) (0 : Fin 1)) = sgm (m ((c : Thread nD τ).loc main_arg8) (ix2 (0 : Fin 1) (0 : Fin 1))) := by
  have e : (V m c main_v13 : S1x1.Idx → EReal)
      = Host.divf (F := Ideal) (broadcastInDim S1x1 ![] Gen.bcast_S_S1x1 (constant (F := Ideal) S_ .f32 0x3F800000#32))
          (addf (broadcastInDim S1x1 ![] Gen.bcast_S_S1x1 (constant (F := Ideal) S_ .f32 0x3F800000#32))
            (Host.exp (F := Ideal) (Host.negf (F := Ideal) (m ((c : Thread nD τ).loc main_arg8))))) := by
    dsimp only [V, hostOps0]; after_results
  rw [e]
  rfl

/-- The second scalar gate: the logistic of ν. -/
theorem V_v19_apply (c : Dev nD) :
    V m c main_v19 (ix2 (0 : Fin 1) (0 : Fin 1)) = sgm (m ((c : Thread nD τ).loc main_arg9) (ix2 (0 : Fin 1) (0 : Fin 1))) := by
  have e : (V m c main_v19 : S1x1.Idx → EReal)
      = Host.divf (F := Ideal) (broadcastInDim S1x1 ![] Gen.bcast_S_S1x1 (constant (F := Ideal) S_ .f32 0x3F800000#32))
          (addf (broadcastInDim S1x1 ![] Gen.bcast_S_S1x1 (constant (F := Ideal) S_ .f32 0x3F800000#32))
            (Host.exp (F := Ideal) (Host.negf (F := Ideal) (m ((c : Thread nD τ).loc main_arg9))))) := by
    dsimp only [V, hostOps0]; after_results
  rw [e]
  rfl

/-! ## What a point writes back, and the array after the run -/

/-- The cell of the ten argument arrays as launched on core `c`. -/
abbrev cellOf (c : Dev nD) : S8192x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem N_eq : cfg0.N = 16 := N_0

/-- WHAT POINT `t` WRITES BACK is rows `512·t … 512·t + 511` of the cell of the arguments. -/
theorem flushed_eq (c : Dev nD) (t : Fin cfg0.N) :
    (dats m 0 c).flushed 10 t = ((cfg0.win 10).blk t).view.read (Elt Ideal) (cellOf m c) := by
  have hB := out_eq (iblk m c 0 t) (iblk m c 1 t) (iblk m c 2 t) (iblk m c 3 t) (iblk m c 4 t) (iblk m c 5 t)
    (iblk m c 6 t) (iblk m c 7 t) (iblk m c 8 t) (iblk m c 9 t)
  rw [Value.flushed10, hB]
  funext y
  obtain ⟨p, j, rfl⟩ : ∃ (p : Fin 512) (j : Fin 2048), y = ix2 p j := ⟨y 0, y 1, eq_ix2 y⟩
  have ht : t.val < 16 := lt_of_lt_of_eq t.isLt N_eq
  have hb : t.val * 512 + p.val < 8192 := by have := p.isLt; omega
  obtain ⟨-, -, -, -, -, -, -, -, -, -, -, -, -, -, -, -, -, -, -, -, e0, e1⟩ := idx_facts t
  have hemb : ((cfg0.win 10).blk t).view.emb (ix2 p j) = ix2 (⟨t.val * 512 + p.val, hb⟩ : Fin 8192) j :=
    funext fun a => Fin.ext (by
      match a with
      | ⟨0, _⟩ => show win0_10.index t (0 : Fin 2) * 512 + 1 * p.val = t.val * 512 + p.val; omega
      | ⟨1, _⟩ => show win0_10.index t (1 : Fin 2) * 2048 + 1 * j.val = j.val; omega)
  show B (N := 512) (iblk m c 0 t) (iblk m c 1 t) (iblk m c 2 t) (iblk m c 3 t) (iblk m c 4 t) (iblk m c 5 t)
      (iblk m c 6 t) (iblk m c 7 t) (iblk m c 8 t) (iblk m c 9 t) (ix2 p j)
    = cellOf m c (((cfg0.win 10).blk t).view.emb (ix2 p j))
  rw [hemb]
  refine B_eq_G (N := 512) (M := 8192) _ _ _ _ _ _ _ _ _ _ _ _ _ _ _ _ _ _ _ _ p ⟨t.val * 512 + p.val, hb⟩ j
    ?_ ?_ ?_ ?_ ?_ ?_ ?_ ?_ ?_ ?_
  · exact fun i => (blk0_apply m c t p i ⟨_, hb⟩ rfl).trans (congrFun (V_main_arg0 m c) _)
  · exact fun k => (blk1_apply m c t p k ⟨_, hb⟩ rfl).trans (congrFun (V_main_arg1 m c) _)
  · exact fun i r => (blk2_apply m c t i r).trans (V_v1_apply m c i r)
  · exact fun r j => (blk3_apply m c t r j).trans (V_v3_apply m c r j)
  · exact fun k r => (blk4_apply m c t k r).trans (V_v5_apply m c k r)
  · exact fun r j => (blk5_apply m c t r j).trans (V_v7_apply m c r j)
  · exact (blk6_apply m c t j).trans (congrFun (V_main_arg6 m c) _)
  · exact (blk7_apply m c t j).trans (congrFun (V_main_arg7 m c) _)
  · exact (blk8_apply m c t).trans (V_v13_apply m c)
  · exact (blk9_apply m c t).trans (V_v19_apply m c)

/-- An index of the result array is in point `t`'s block iff each coordinate is in the block's range on its axis. -/
theorem mem_blk (t : Fin cfg0.N) (i : S8192x2048.Idx) :
    i ∈ ((cfg0.win 10).blk t).view.set ↔ ∀ a : Fin 2, win0_10.index t a * S512x2048.size a ≤ (i a).val
      ∧ (i a).val < win0_10.index t a * S512x2048.size a + S512x2048.size a := by
  show i ∈ ((View.whole main_v20).slice (win0_10.rect t)).set ↔ _
  rw [View.set_slice_whole, Rect.mem_set_unit]
  exact Iff.rfl

/-- The sixteen row blocks cover the array: row `r` lies in the block of point `r / 512`. -/
theorem cover (i : S8192x2048.Idx) :
    ∃ t : Fin cfg0.N, (cfg0.win 10).flush t = true ∧ i ∈ ((cfg0.win 10).blk t).view.set := by
  have hi0 : (i 0).val < 8192 := (i 0).isLt
  have hi1 : (i 1).val < 2048 := (i 1).isLt
  have ht : (i 0).val / 512 < cfg0.N := by rw [N_eq]; omega
  refine ⟨⟨(i 0).val / 512, ht⟩, flush0_10 _, ?_⟩
  rw [mem_blk]
  obtain ⟨-, -, -, -, -, -, -, -, -, -, -, -, -, -, -, -, -, -, -, -, e0, e1⟩ := idx_facts ⟨(i 0).val / 512, ht⟩
  have e0' : win0_10.index ⟨(i 0).val / 512, ht⟩ (0 : Fin 2) = (i 0).val / 512 := e0
  intro a
  match a with
  | ⟨0, _⟩ =>
    show win0_10.index ⟨(i 0).val / 512, ht⟩ (0 : Fin 2) * 512 ≤ (i 0).val
      ∧ (i 0).val < win0_10.index ⟨(i 0).val / 512, ht⟩ (0 : Fin 2) * 512 + 512
    omega
  | ⟨1, _⟩ =>
    show win0_10.index ⟨(i 0).val / 512, ht⟩ (1 : Fin 2) * 2048 ≤ (i 1).val
      ∧ (i 1).val < win0_10.index ⟨(i 0).val / 512, ht⟩ (1 : Fin 2) * 2048 + 2048
    omega

/-- THE ARRAY after the run is the cell of the arguments. -/
theorem final (c : Dev nD) : (dats m 0 c).arrAt 10 cfg0.N = cellOf m c :=
  (dats m 0 c).arrAt_eq_of_cover 10 (cellOf m c) (fun t _ => flushed_eq m c t) cover

/-- THE RUN: every weakly fair execution terminates with the result array at the cell of the arguments and the
    arguments unchanged. -/
theorem run : θ_run defs (onTc (τ := τ) (main (F := Ideal))) ⟨m, fun _ => 0, ρ⟩ fun r => ∀ c : Dev nD,
      r.2.mem ((c : Thread nD τ).loc main_v20) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.CellValue

end
-- ==== Proof.lean ====
/-
  A low-rank gated recurrent cell: the tiled kernel and the plain reference compute one function at the ideal values.

  Both programs take an input `x [8192, 1024]`, a state `h [8192, 2048]`, two factored weights `W2 · W1`
  (`[2048, 256] · [256, 1024]`) and `U2 · U1` (`[2048, 256] · [256, 2048]`), two bias rows and two scalars ζ, ν, and return
      z · h + (σ ζ · (1 − z) + σ ν) · tanh (pre + b_u),   z = σ (pre + b_g),   pre = (x · W1ᵀ) · W2ᵀ + (h · U1ᵀ) · U2ᵀ.
  The reference contracts rows against rows of the weights as given and spells σ as `1 / (1 + e^(−v))`; the kernel
  transposes the weights and forms σ ζ, σ ν on the host, then per block of 512 batch rows forms the two rank-256
  intermediates and finishes the 2048 hidden columns in two halves, with the one-operation logistic. At the ideal
  values a change of float format is the identity, a product into a zero accumulator is the bare sum, and the
  logistic IS that quotient, so the two results agree entry by entry by re-indexing finite sums alone — no law that
  would need the inputs finite is used, and the precondition is never opened.

  `Cert.GatedCell.G` (CellSpec) is the function; RefCell reads the reference's run as `G`; KernelBlock reads what the
  kernel body stores as the same cell of its loaded blocks; CellArray carries that through the sixteen row blocks to
  the whole result array. The three frames are the generated ones (the reference's from its generated run), and the
  idealization rewrote nothing, so `preserves` has nothing to state.
-/
import proofs.«135194_j29222957482088_2_alg».proof.Defs
import proofs.«135194_j29222957482088_2_alg».proof.Proof.Gen.Kernel
import proofs.«135194_j29222957482088_2_alg».proof.Proof.Gen.Kernel.Skeleton
import proofs.«135194_j29222957482088_2_alg».proof.Proof.Gen.Kernel.Launch
import proofs.«135194_j29222957482088_2_alg».proof.Proof.Gen.Kernel.Points
import proofs.«135194_j29222957482088_2_alg».proof.Proof.Gen.Kernel.Frame
import proofs.«135194_j29222957482088_2_alg».proof.Proof.Gen.KernelIdeal
import proofs.«135194_j29222957482088_2_alg».proof.Proof.Gen.KernelIdeal.Skeleton
import proofs.«135194_j29222957482088_2_alg».proof.Proof.Gen.KernelIdeal.Launch
import proofs.«135194_j29222957482088_2_alg».proof.Proof.Gen.KernelIdeal.Points
import proofs.«135194_j29222957482088_2_alg».proof.Proof.Gen.KernelIdeal.Frame
import proofs.«135194_j29222957482088_2_alg».proof.Proof.Gen.ReferenceIdeal
import proofs.«135194_j29222957482088_2_alg».proof.Proof.Gen.Pre_finite_inputs
import proofs.«135194_j29222957482088_2_alg».proof.Proof.Gen.KernelIdeal.Value
import proofs.«135194_j29222957482088_2_alg».proof.Proof.Gen.ReferenceIdeal.Run
import proofs.«135194_j29222957482088_2_alg».proof.Proof.Gen.ReferenceIdeal.Read
import proofs.«135194_j29222957482088_2_alg».proof.Proof.RefCell
import proofs.«135194_j29222957482088_2_alg».proof.Proof.CellArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both programs end with the cell `G` of those arguments in their
    result arrays: the kernel's by its blocks (CellArray), the reference's by its run read entry by entry (RefCell). -/
theorem algebraic : Cert.algebraic_KernelIdeal_ReferenceIdeal := by
  intro m ρ m' ρ' _ hagree
  refine ⟨fun c => Cert.KernelIdeal.CellValue.cellOf m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v36_eq, Cert.ReferenceIdeal.CellValue.result_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
